-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64x64 .f32) (main_arg6 : FVec F S64x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x64 .f32) (main_arg3 : FVec F S128x64 .f32) (main_arg4 : FVec F S64 .f32) (main_arg5 : FVec F S64x64 .f32) (main_arg6 : FVec F S64x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩

abbrev nBuf : Space → Nat
  | .hbm => 64
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000x1, .f32⟩
  | .hbm, ⟨27, _⟩ => ⟨S_, .f32⟩
  | .hbm, ⟨28, _⟩ => ⟨S100000x1, .f32⟩
  | .hbm, ⟨29, _⟩ => ⟨S1600000x1, .i32⟩
  | .hbm, ⟨30, _⟩ => ⟨S100000x1, .f32⟩
  | .hbm, ⟨31, _⟩ => ⟨S_, .f32⟩
  | .hbm, ⟨32, _⟩ => ⟨S100000x1, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S1x64, .f32⟩
  | .hbm, ⟨37, _⟩ => ⟨S100000x64, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x64, .f32⟩
  | .hbm, ⟨47, _⟩ => ⟨S_, .f32⟩
  | .hbm, ⟨48, _⟩ => ⟨S100000x64, .f32⟩
  | .hbm, ⟨49, _⟩ => ⟨S1600000x1, .i32⟩
  | .hbm, ⟨50, _⟩ => ⟨S100000x64, .f32⟩
  | .hbm, ⟨51, _⟩ => ⟨S_, .f32⟩
  | .hbm, ⟨52, _⟩ => ⟨S1600000x1, .f32⟩
  | .hbm, ⟨53, _⟩ => ⟨S_, .f32⟩
  | .hbm, ⟨54, _⟩ => ⟨S100000x1, .f32⟩
  | .hbm, ⟨55, _⟩ => ⟨S1600000x1, .i32⟩
  | .hbm, ⟨56, _⟩ => ⟨S100000x1, .f32⟩
  | .hbm, ⟨57, _⟩ => ⟨S_, .f32⟩
  | .hbm, ⟨58, _⟩ => ⟨S100000x1, .f32⟩
  | .hbm, ⟨59, _⟩ => ⟨S100000x1, .f32⟩
  | .hbm, ⟨60, _⟩ => ⟨S100000x64, .f32⟩
  | .hbm, ⟨61, _⟩ => ⟨S100000x64, .f32⟩
  | .hbm, ⟨62, _⟩ => ⟨S1x64, .f32⟩
  | .hbm, ⟨63, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x64, .f32⟩
  | .local _ .vmem, ⟨5, _⟩ => ⟨S128x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v21) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S100000x64 : Shape := ⟨2, ![100000, 64]⟩
abbrev S1x64 : Shape := ⟨2, ![1, 64]⟩
abbrev S1600000x64 : Shape := ⟨2, ![1600000, 64]⟩

abbrev nBuf : Space → Nat
  | .hbm => 75
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000x1, .f32⟩
  | .hbm, ⟨27, _⟩ => ⟨S_, .f32⟩
  | .hbm, ⟨28, _⟩ => ⟨S100000x1, .f32⟩
  | .hbm, ⟨29, _⟩ => ⟨S1600000x1, .i32⟩
  | .hbm, ⟨30, _⟩ => ⟨S100000x1, .f32⟩
  | .hbm, ⟨31, _⟩ => ⟨S_, .f32⟩
  | .hbm, ⟨32, _⟩ => ⟨S100000x1, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S1x64, .f32⟩
  | .hbm, ⟨40, _⟩ => ⟨S100000x64, .f32⟩
  | .hbm, ⟨41, _⟩ => ⟨S100000x64, .f32⟩
  | .hbm, ⟨42, _⟩ => ⟨S_, .f32⟩
  | .hbm, ⟨43, _⟩ => ⟨S100000x64, .f32⟩
  | .hbm, ⟨44, _⟩ => ⟨S100000x64, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x64, .f32⟩
  | .hbm, ⟨54, _⟩ => ⟨S_, .f32⟩
  | .hbm, ⟨55, _⟩ => ⟨S100000x64, .f32⟩
  | .hbm, ⟨56, _⟩ => ⟨S1600000x1, .i32⟩
  | .hbm, ⟨57, _⟩ => ⟨S100000x64, .f32⟩
  | .hbm, ⟨58, _⟩ => ⟨S_, .f32⟩
  | .hbm, ⟨59, _⟩ => ⟨S1600000x1, .f32⟩
  | .hbm, ⟨60, _⟩ => ⟨S_, .f32⟩
  | .hbm, ⟨61, _⟩ => ⟨S100000x1, .f32⟩
  | .hbm, ⟨62, _⟩ => ⟨S1600000x1, .i32⟩
  | .hbm, ⟨63, _⟩ => ⟨S100000x1, .f32⟩
  | .hbm, ⟨64, _⟩ => ⟨S_, .f32⟩
  | .hbm, ⟨65, _⟩ => ⟨S100000x1, .f32⟩
  | .hbm, ⟨66, _⟩ => ⟨S100000x1, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call0_cst : Ref sig .tc := ⟨.hbm, 42, rfl⟩
abbrev main_call0_v0 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel's run with its result array named.

  @main is four segments: a stretch of host operations, the first layer's pallas_call, a second stretch of host
  operations, the second layer's pallas_call. The contents of every buffer at each boundary form a fold through
  those segments; `W4` is the last of them, the contents when @main returns. Every weakly fair execution ends with
  the result array `%43` holding `W4` at that array — what the second pallas_call's write-backs leave —, and with
  the eight argument arrays as launched. The later modules open `W4` at the result array, one boundary at a time.
-/
import proofs.«146645_j80874234183757_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result array ends at the last boundary's
    contents and the arguments end as launched. -/
theorem run : θ_run defs (onTc (τ := τ) (main (F := F))) ⟨m, fun _ => 0, ρ⟩ (fun r => ∀ c : Dev nD,
      r.2.mem ((c.tc : Thread nD τ).loc main_v43) = W4 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v43 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Named

end
-- ==== Proof.LibRowOps.lean ====
/-
  Reads at an index, for rank-2 arrays, of the operations a row-wise kernel and its reference are built from — stated
  for any extents, at the ideal values (floats are extended reals) where a float operation is involved:

  * a matrix product contracting the left operand's columns with the right operand's rows (a `tpu.matmul` into the
    zero accumulator, the host's `dot_general`), read at `(i, j)`, is the sum over `k` of `l (i, k) * r (k, j)`;
  * three equally wide arrays joined along the columns, read at `(a, c)`, are piece `c / 64` at `(a, c % 64)`;
  * a column `[a, 1]` broadcast along the rows' direction to `[a, b]` reads, at `(p, c)`, the column at `p`;
  * a scalar broadcast to any shape reads the scalar everywhere.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Idealize.ShloMosaic.RowOps

open Idealize.ShloMosaic Idealize.ShloMosaic.ValueIdx

/-! ## The plain matrix product -/

/-- The dimension numbers of `[A, K] × [K, B] → [A, B]`: the left operand's axis 1 contracted with the right operand's
    axis 0, no batch axis. -/
abbrev plainDims {A K B : Nat}
    (wf : DotDims.WF (⟨2, ![A, K]⟩ : Shape) ⟨2, ![K, B]⟩ ⟨2, ![A, B]⟩ [1] [0] [0] [1] [] []) :
    DotDims (⟨2, ![A, K]⟩ : Shape) ⟨2, ![K, B]⟩ ⟨2, ![A, B]⟩ :=
  ⟨[1], [0], [0], [1], [], [], wf⟩

/-- Off the contracted axis the left operand's index is the result's row, whatever the contraction position. -/
theorem plain_lhs0 {A K B : Nat} (wf : DotDims.WF (⟨2, ![A, K]⟩ : Shape) ⟨2, ![K, B]⟩ ⟨2, ![A, B]⟩ [1] [0] [0] [1] [] [])
    (j : (⟨2, ![A, B]⟩ : Shape).Idx) (q : (plainDims wf).contr.Idx) :
    ((plainDims wf).lhsIdx j q 0).val = (j 0).val := by
  unfold DotDims.lhsIdx
  rw [dif_neg (show ¬(0 : Fin 2) ∈ ([] : List (Fin 2)) from List.not_mem_nil),
    dif_pos (show (0 : Fin 2) ∈ ([0] : List (Fin 2)) from List.mem_singleton.mpr rfl)]
  rfl

/-- Off the contracted axis the right operand's index is the result's column, whatever the contraction position. -/
theorem plain_rhs1 {A K B : Nat} (wf : DotDims.WF (⟨2, ![A, K]⟩ : Shape) ⟨2, ![K, B]⟩ ⟨2, ![A, B]⟩ [1] [0] [0] [1] [] [])
    (j : (⟨2, ![A, B]⟩ : Shape).Idx) (q : (plainDims wf).contr.Idx) :
    ((plainDims wf).rhsIdx j q 1).val = (j 1).val := by
  unfold DotDims.rhsIdx
  rw [dif_neg (show ¬(1 : Fin 2) ∈ ([] : List (Fin 2)) from List.not_mem_nil),
    dif_pos (show (1 : Fin 2) ∈ ([1] : List (Fin 2)) from List.mem_singleton.mpr rfl)]
  rfl

/-- The contraction sum of a plain matrix product, re-indexed by the contracted coordinate: at `j = (i, c)` the left
    operand is read along row `i`, the right one down column `c`. -/
theorem plainDot_sum {A K B : Nat} (d : DotDims (⟨2, ![A, K]⟩ : Shape) ⟨2, ![K, B]⟩ ⟨2, ![A, B]⟩)
    (hd : ∃ wf, d = plainDims wf)
    (l : (⟨2, ![A, K]⟩ : Shape).Idx → EReal) (r : (⟨2, ![K, B]⟩ : Shape).Idx → EReal) (j : (⟨2, ![A, B]⟩ : Shape).Idx) :
    ∑ k : d.contr.Idx, l (d.lhsIdx j k) * r (d.rhsIdx j k) = ∑ k : Fin K, l (ix2 (j 0) k) * r (ix2 k (j 1)) := by
  obtain ⟨wf, rfl⟩ := hd
  rw [← Equiv.sum_comp (contrEquiv1 (plainDims wf) K rfl rfl).symm]
  refine Finset.sum_congr rfl fun k _ => ?_
  have hk := contrEquiv1_symm_val (plainDims wf) K rfl rfl k
  have el : (plainDims wf).lhsIdx j ((contrEquiv1 (plainDims wf) K rfl rfl).symm k) = ix2 (j 0) k :=
    funext fun a => Fin.ext (by
      match a with
      | ⟨0, _⟩ => exact plain_lhs0 wf j _
      | ⟨1, _⟩ => exact ((plainDims wf).lhsIdx_val_of_single (cl := 1) rfl j _).trans hk)
  have er : (plainDims wf).rhsIdx j ((contrEquiv1 (plainDims wf) K rfl rfl).symm k) = ix2 k (j 1) :=
    funext fun a => Fin.ext (by
      match a with
      | ⟨0, _⟩ => exact ((plainDims wf).rhsIdx_val_of_single (cr := 0) rfl j _).trans hk
      | ⟨1, _⟩ => exact plain_rhs1 wf j _)
  rw [el, er]
  rfl

/-- A `tpu.matmul` of a plain product into the zero accumulator, read at `(i, c)`: the sum over `k` of
    `l (i, k) * r (k, c)`. -/
theorem matmul_zero_plain_apply {A K B : Nat} {φ₁ φ₂ : FTy} (d : DotDims (⟨2, ![A, K]⟩ : Shape) ⟨2, ![K, B]⟩ ⟨2, ![A, B]⟩)
    (hd : ∃ wf, d = plainDims wf) (prec : Option ContractPrecision)
    (l : FVec Ideal (⟨2, ![A, K]⟩ : Shape) φ₁) (r : FVec Ideal (⟨2, ![K, B]⟩ : Shape) φ₂) (i : Fin A) (c : Fin B) :
    FloatOps.matmul d prec l r (constant (⟨2, ![A, B]⟩ : Shape) .f32 0x00000000#32) (ix2 i c)
      = ∑ k : Fin K, l (ix2 i k) * r (ix2 k c) := by
  rw [Ideal.matmul_constant_zero_apply]
  exact plainDot_sum d hd l r (ix2 i c)

/-- The host's `dot_general` of a plain product, read at `(i, c)`: the same sum. -/
theorem dotGeneral_plain_apply {A K B : Nat} {φ₁ φ₂ : FTy} (d : DotDims (⟨2, ![A, K]⟩ : Shape) ⟨2, ![K, B]⟩ ⟨2, ![A, B]⟩)
    (hd : ∃ wf, d = plainDims wf) (prec : Option ContractPrecision) (sched : HostSchedule)
    (l : FVec Ideal (⟨2, ![A, K]⟩ : Shape) φ₁) (r : FVec Ideal (⟨2, ![K, B]⟩ : Shape) φ₂) (i : Fin A) (c : Fin B) :
    FloatOps.dotGeneral d prec sched l r (ix2 i c) = ∑ k : Fin K, l (ix2 i k) * r (ix2 k c) := by
  rw [Ideal.dotGeneral_apply]
  exact plainDot_sum d hd l r (ix2 i c)

/-! ## Three pieces joined along the columns -/

variable {α : Type}

/-- Three `[A, 64]` arrays joined along axis 1 into `[A, 192]`, read at `(a, c)`: piece `c / 64` at `(a, c % 64)`. -/
theorem concat3_apply {A : Nat} (u0 u1 u2 : (⟨2, ![A, 64]⟩ : Shape).Idx → α)
    (h : Shape.Concatenates [(⟨2, ![A, 64]⟩ : Shape), ⟨2, ![A, 64]⟩, ⟨2, ![A, 64]⟩] ⟨2, ![A, 192]⟩ 1)
    (a : Fin A) (c : Fin 192) :
    concatenate (⟨2, ![A, 192]⟩ : Shape) 1 [⟨⟨2, ![A, 64]⟩, u0⟩, ⟨⟨2, ![A, 64]⟩, u1⟩, ⟨⟨2, ![A, 64]⟩, u2⟩] h (ix2 a c)
      = (![u0, u1, u2] ⟨c.val / 64, by have := c.isLt; omega⟩) (ix2 a ⟨c.val % 64, Nat.mod_lt _ (by decide)⟩) := by
  refine concatenate_ofFn_apply (t := (⟨2, ![A, 192]⟩ : Shape)) (s₁ := (⟨2, ![A, 64]⟩ : Shape)) 1 ![u0, u1, u2] h rfl 64 rfl
    (ix2 a c) ⟨c.val / 64, by have := c.isLt; omega⟩ rfl (ix2 a ⟨c.val % 64, Nat.mod_lt _ (by decide)⟩) rfl ?_
  intro b hb
  match b with
  | ⟨0, _⟩ => rfl
  | ⟨1, _⟩ => exact absurd rfl hb

/-! ## A column broadcast along its rows -/

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A scalar broadcast -/

/-- A scalar broadcast to any shape reads, everywhere, the scalar. -/
theorem broadcastInDim_scalar_apply {t : Shape} (h : (⟨0, ![]⟩ : Shape).BroadcastsInDim t (![] : Fin 0 → Fin t.rank))
    (x : (⟨0, ![]⟩ : Shape).Idx → α) (j : t.Idx) :
    broadcastInDim t ![] h x j = x ix0 :=
  broadcastInDim_apply ![] h x j ix0 fun a => a.elim0

end Idealize.ShloMosaic.RowOps

end
-- ==== Proof.LibNodeLayer.lean ====
/-
  One layer of a node-wise graph network — a neighbourhood mean and the node's own features, each multiplied into a
  weight matrix stored output-major, plus a bias; optionally a per-column affine normalisation and a clamp at zero —
  read at an index over the extended reals, for any extents.

  * `linAt agg x wl wr b r j` is entry `(r, j)` of `agg · wlᵀ + x · wrᵀ + b`: row `r` of `agg` against row `j` of `wl`,
    row `r` of `x` against row `j` of `wr`, and entry `j` of the bias.
  * `normAt z g be mu var j` is `max ((z − mu j) · (g j · (var j + ε)^(−1/2)) + be j) 0`.

  A tiled kernel's body (two products into the zero accumulator per row block, the operands narrowed to bf16 on the way
  in — nothing, on extended reals —, the weights transposed in registers, every per-column vector made a row and
  broadcast down the block) and the host's operations (two `dot_general`s against transposed weights, the per-column
  vectors broadcast in two steps) both read, at an index, as these terms. The host adds the bias before the second
  product and the kernel after it: addition of extended reals is commutative and associative, with no finiteness
  needed, and that is the one law used.
-/
import proofs.«146645_j80874234183757_1_alg».proof.Proof.LibRowOps

noncomputable section

open scoped BigOperators

namespace Idealize.ShloMosaic.NodeLayer

open Idealize.ShloMosaic Idealize.ShloMosaic.ValueIdx

variable {α : Type}

/-! ## Layout pieces -/

/-- A `[b, a]` array transposed to `[a, b]` reads, at `(k, j)`, the operand at `(j, k)`. -/
theorem transpose_ba_ab_apply {a b : ℕ} (x : (⟨2, ![b, a]⟩ : Shape).Idx → α)
    (h : (⟨2, ![b, a]⟩ : Shape).Transposes [1, 0] ⟨2, ![a, b]⟩) (k : Fin a) (j : Fin b) :
    transpose ⟨2, ![a, b]⟩ [1, 0] x h (ix2 k j) = x (ix2 j k) :=
  transpose_apply [1, 0] x h (ix2 k j) (ix2 j k) fun c => by
    match c with
    | ⟨0, _⟩ => rfl
    | ⟨1, _⟩ => rfl

/-- A per-column vector `[n]` made a row and broadcast down `m` rows (the kernel's way: a shape cast, then a vector
    broadcast) reads, at `(p, q)`, the vector at `q`. -/
theorem row_body_apply {n m : ℕ} (v : (⟨1, ![n]⟩ : Shape).Idx → α)
    (hs : (⟨1, ![n]⟩ : Shape).ShapeCasts ⟨2, ![1, n]⟩) (hb : (⟨2, ![1, n]⟩ : Shape).Broadcasts ⟨2, ![m, n]⟩)
    (p : Fin m) (q : Fin n) :
    broadcastTo (⟨2, ![m, n]⟩ : Shape) (shapeCast (⟨2, ![1, n]⟩ : Shape) v hs) hb (ix2 p q) = v (ix1 q) := by
  rw [broadcastTo_1b_ab_apply, shapeCast_a_1a_apply]

/-- The same vector made a row and broadcast down `m` rows the host's way (two `broadcast_in_dim`s) reads, at
    `(p, q)`, the vector at `q`. -/
theorem row_host_apply {n m : ℕ} (v : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (p : Fin m) (q : Fin n) :
    broadcastInDim (⟨2, ![m, n]⟩ : Shape) ![0, 1] h2 (broadcastInDim (⟨2, ![1, n]⟩ : Shape) ![1] h1 v) (ix2 p q)
      = v (ix1 q) := by
  rw [broadcastInDim_apply ![0, 1] h2 _ (ix2 p q) (ix2 (0 : Fin 1) q) (fun a => by
    match a with
    | ⟨0, _⟩ => show (0 : Nat) = if (1 : Nat) = 1 then 0 else p.val; rw [if_pos rfl]
    | ⟨1, _⟩ =>
      show q.val = if n = 1 then 0 else q.val
      split
      · have := q.isLt; omega
      · rfl)]
  exact broadcastInDim_apply ![1] h1 v (ix2 (0 : Fin 1) q) (ix1 q) (fun a => by
    match a with
    | ⟨0, _⟩ =>
      show q.val = if n = 1 then 0 else q.val
      split
      · have := q.isLt; omega
      · rfl)

/-! ## The layer, entry by entry -/

/-- Entry `(r, j)` of `agg · wlᵀ + x · wrᵀ + b`, the weights `[B, A]` (one row per output column). -/
def linAt {R A B : ℕ} (agg x : FVec Ideal (⟨2, ![R, A]⟩ : Shape) .f32) (wl wr : FVec Ideal (⟨2, ![B, A]⟩ : Shape) .f32)
    (b : FVec Ideal (⟨1, ![B]⟩ : Shape) .f32) (r : Fin R) (j : Fin B) : Ideal .f32 :=
  (∑ k : Fin A, agg (ix2 r k) * wl (ix2 j k)) + (∑ k : Fin A, x (ix2 r k) * wr (ix2 j k)) + b (ix1 j)

/-- The per-column normalisation and clamp of one entry `z` of column `j`:
    `max ((z − mu j) · (g j · (var j + ε)^(−1/2)) + be j) 0`, `ε` the f32 nearest to `1e-5`. -/
def normAt {B : ℕ} (z : Ideal .f32) (g be mu var : FVec Ideal (⟨1, ![B]⟩ : Shape) .f32) (j : Fin B) : Ideal .f32 :=
  max ((z - mu (ix1 j)) * (g (ix1 j) * Ideal.rsqrt (var (ix1 j) + Ideal.ofBits .f32 0x3727C5AC#32)) + be (ix1 j))
    (Ideal.ofBits .f32 0x00000000#32)

/-- An entry of the linear part reads one row of each activation array: two instances that agree there are equal. -/
theorem linAt_congr {R R' A B : ℕ} {agg x : FVec Ideal (⟨2, ![R, A]⟩ : Shape) .f32}
    {agg' x' : FVec Ideal (⟨2, ![R', A]⟩ : Shape) .f32} {wl wr : FVec Ideal (⟨2, ![B, A]⟩ : Shape) .f32}
    {b : FVec Ideal (⟨1, ![B]⟩ : Shape) .f32} {r : Fin R} {r' : Fin R'} (j : Fin B)
    (ha : ∀ k, agg (ix2 r k) = agg' (ix2 r' k)) (hx : ∀ k, x (ix2 r k) = x' (ix2 r' k)) :
    linAt agg x wl wr b r j = linAt agg' x' wl wr b r' j := by
  unfold linAt
  simp only [ha, hx]

/-- The whole layer with normalisation, as one array: entry `(r, j)` is `normAt` of `linAt`. -/
def normLayer {R A B : ℕ} (agg x : FVec Ideal (⟨2, ![R, A]⟩ : Shape) .f32) (wl wr : FVec Ideal (⟨2, ![B, A]⟩ : Shape) .f32)
    (b g be mu var : FVec Ideal (⟨1, ![B]⟩ : Shape) .f32) : FVec Ideal (⟨2, ![R, B]⟩ : Shape) .f32 :=
  fun i => normAt (linAt agg x wl wr b (i 0) (i 1)) g be mu var (i 1)

/-- The whole linear layer as one array. -/
def linLayer {R A B : ℕ} (agg x : FVec Ideal (⟨2, ![R, A]⟩ : Shape) .f32) (wl wr : FVec Ideal (⟨2, ![B, A]⟩ : Shape) .f32)
    (b : FVec Ideal (⟨1, ![B]⟩ : Shape) .f32) : FVec Ideal (⟨2, ![R, B]⟩ : Shape) .f32 :=
  fun i => linAt agg x wl wr b (i 0) (i 1)

/-- Row `r` of a block against row `r'` of the whole arrays: the normalised layer's entries agree when the two rows of
    each activation array do and the weights and per-column vectors are the same. -/
theorem normLin_congr {R R' A B : ℕ} {agg x : FVec Ideal (⟨2, ![R, A]⟩ : Shape) .f32}
    {agg' x' : FVec Ideal (⟨2, ![R', A]⟩ : Shape) .f32} {wl wr wl' wr' : FVec Ideal (⟨2, ![B, A]⟩ : Shape) .f32}
    {b g be mu var b' g' be' mu' var' : FVec Ideal (⟨1, ![B]⟩ : Shape) .f32} {r : Fin R} {r' : Fin R'} (j : Fin B)
    (ha : ∀ k, agg (ix2 r k) = agg' (ix2 r' k)) (hx : ∀ k, x (ix2 r k) = x' (ix2 r' k))
    (hwl : wl = wl') (hwr : wr = wr') (hb : b = b') (hg : g = g') (hbe : be = be') (hmu : mu = mu') (hvar : var = var') :
    normAt (linAt agg x wl wr b r j) g be mu var j = normAt (linAt agg' x' wl' wr' b' r' j) g' be' mu' var' j := by
  subst hwl hwr hb hg hbe hmu hvar
  rw [linAt_congr j ha hx]

/-- The same for the linear layer alone. -/
theorem lin_congr {R R' A B : ℕ} {agg x : FVec Ideal (⟨2, ![R, A]⟩ : Shape) .f32}
    {agg' x' : FVec Ideal (⟨2, ![R', A]⟩ : Shape) .f32} {wl wr wl' wr' : FVec Ideal (⟨2, ![B, A]⟩ : Shape) .f32}
    {b b' : FVec Ideal (⟨1, ![B]⟩ : Shape) .f32} {r : Fin R} {r' : Fin R'} (j : Fin B)
    (ha : ∀ k, agg (ix2 r k) = agg' (ix2 r' k)) (hx : ∀ k, x (ix2 r k) = x' (ix2 r' k))
    (hwl : wl = wl') (hwr : wr = wr') (hb : b = b') :
    linAt agg x wl wr b r j = linAt agg' x' wl' wr' b' r' j := by
  subst hwl hwr hb
  exact linAt_congr j ha hx

/-- The zero offsets of a whole-block access, rank 2 and rank 1. -/
theorem zero_offsets2 : (![0, 0] : Fin 2 → Nat) = fun _ => 0 := funext fun a => by fin_cases a <;> rfl
theorem zero_offsets1 : (![0] : Fin 1 → Nat) = fun _ => 0 := funext fun a => by fin_cases a; rfl

/-! ## The kernel's body -/

/-- The linear part of the body on one row block. -/
theorem lin_body_apply {R A B : ℕ}
    (d : DotDims (⟨2, ![R, A]⟩ : Shape) ⟨2, ![A, B]⟩ ⟨2, ![R, B]⟩) (hd : ∃ wf, d = RowOps.plainDims wf)
    (agg x : FVec Ideal (⟨2, ![R, A]⟩ : Shape) .f32) (wl wr : FVec Ideal (⟨2, ![B, A]⟩ : Shape) .f32)
    (b : FVec Ideal (⟨1, ![B]⟩ : Shape) .f32)
    (ht : (⟨2, ![B, A]⟩ : Shape).Transposes [1, 0] ⟨2, ![A, B]⟩)
    (hs : (⟨1, ![B]⟩ : Shape).ShapeCasts ⟨2, ![1, B]⟩) (hb : (⟨2, ![1, B]⟩ : Shape).Broadcasts ⟨2, ![R, B]⟩)
    (hlt : FTy.bf16.bits < FTy.f32.bits) (r : Fin R) (j : Fin B) :
    addf (addf (matmul d none (truncf .bf16 agg hlt) (transpose _ [1, 0] (truncf .bf16 wl hlt) ht) (constant _ .f32 0x00000000#32))
          (matmul d none (truncf .bf16 x hlt) (transpose _ [1, 0] (truncf .bf16 wr hlt) ht) (constant _ .f32 0x00000000#32)))
        (broadcastTo _ (shapeCast _ b hs) hb) (ix2 r j)
      = linAt agg x wl wr b r j := by
  rw [addf_apply, addf_apply, row_body_apply]
  unfold matmul
  rw [RowOps.matmul_zero_plain_apply d hd, RowOps.matmul_zero_plain_apply d hd]
  unfold linAt
  refine congrArg₂ (· + ·) (congrArg₂ (· + ·) (Finset.sum_congr rfl fun k _ => ?_) (Finset.sum_congr rfl fun k _ => ?_)) rfl
  · rw [transpose_ba_ab_apply]; rfl
  · rw [transpose_ba_ab_apply]; rfl

/-- The normalisation and clamp of the body on one row block, over any pre-activation `z`. -/
theorem norm_body_apply {R B : ℕ} (z : FVec Ideal (⟨2, ![R, B]⟩ : Shape) .f32)
    (g be mu var : FVec Ideal (⟨1, ![B]⟩ : Shape) .f32)
    (hs : (⟨1, ![B]⟩ : Shape).ShapeCasts ⟨2, ![1, B]⟩) (hb : (⟨2, ![1, B]⟩ : Shape).Broadcasts ⟨2, ![R, B]⟩)
    (r : Fin R) (j : Fin B) :
    maximumf (addf (mulf (subf z (broadcastTo _ (shapeCast _ mu hs) hb))
          (broadcastTo _ (mulf (shapeCast _ g hs)
            (rsqrt (addf (shapeCast _ var hs) (broadcast _ (Scalar.ofBits (F := Ideal) .f32 0x3727C5AC#32))))) hb))
        (broadcastTo _ (shapeCast _ be hs) hb))
      (broadcast _ (Scalar.ofBits (F := Ideal) .f32 0x00000000#32)) (ix2 r j)
      = normAt (z (ix2 r j)) g be mu var j := by
  rw [maximumf_apply, addf_apply, mulf_apply, subf_apply, row_body_apply, row_body_apply, broadcastTo_1b_ab_apply,
    mulf_apply, shapeCast_a_1a_apply]
  show max ((z (ix2 r j) - mu (ix1 j)) * (g (ix1 j) * Ideal.rsqrt (shapeCast _ var hs (ix2 (0 : Fin 1) j) + _)) + be (ix1 j)) _ = _
  rw [shapeCast_a_1a_apply]
  rfl

/-! ## The host's operations -/

/-- The linear part the host's way; the bias is added before the second product, which is the same sum. -/
theorem lin_host_apply {R A B : ℕ}
    (d : DotDims (⟨2, ![R, A]⟩ : Shape) ⟨2, ![A, B]⟩ ⟨2, ![R, B]⟩) (hd : ∃ wf, d = RowOps.plainDims wf)
    (agg x : FVec Ideal (⟨2, ![R, A]⟩ : Shape) .f32) (wl wr : FVec Ideal (⟨2, ![B, A]⟩ : Shape) .f32)
    (b : FVec Ideal (⟨1, ![B]⟩ : Shape) .f32)
    (ht : (⟨2, ![B, A]⟩ : Shape).Transposes [1, 0] ⟨2, ![A, B]⟩)
    (h1 : (⟨1, ![B]⟩ : Shape).BroadcastsInDim ⟨2, ![1, B]⟩ ![1])
    (h2 : (⟨2, ![1, B]⟩ : Shape).BroadcastsInDim ⟨2, ![R, B]⟩ ![0, 1]) (r : Fin R) (j : Fin B) :
    addf (addf (Host.dotGeneral d none agg (transpose _ [1, 0] wl ht))
          (broadcastInDim _ ![0, 1] h2 (broadcastInDim (⟨2, ![1, B]⟩ : Shape) ![1] h1 b)))
        (Host.dotGeneral d none x (transpose _ [1, 0] wr ht)) (ix2 r j)
      = linAt agg x wl wr b r j := by
  rw [addf_apply, addf_apply, row_host_apply]
  unfold Host.dotGeneral
  rw [RowOps.dotGeneral_plain_apply d hd, RowOps.dotGeneral_plain_apply d hd]
  unfold linAt
  rw [add_right_comm]
  refine congrArg₂ (· + ·) (congrArg₂ (· + ·) (Finset.sum_congr rfl fun k _ => ?_) (Finset.sum_congr rfl fun k _ => ?_)) rfl
  · rw [transpose_ba_ab_apply]
  · rw [transpose_ba_ab_apply]

/-- The normalisation and clamp the host's way, over any pre-activation `z`. -/
theorem norm_host_apply {R B : ℕ} (z : FVec Ideal (⟨2, ![R, B]⟩ : Shape) .f32)
    (g be mu var : FVec Ideal (⟨1, ![B]⟩ : Shape) .f32)
    (h1 : (⟨1, ![B]⟩ : Shape).BroadcastsInDim ⟨2, ![1, B]⟩ ![1])
    (h2 : (⟨2, ![1, B]⟩ : Shape).BroadcastsInDim ⟨2, ![R, B]⟩ ![0, 1])
    (he : (⟨0, ![]⟩ : Shape).BroadcastsInDim ⟨1, ![B]⟩ ![]) (hz : (⟨0, ![]⟩ : Shape).BroadcastsInDim ⟨2, ![R, B]⟩ ![])
    (r : Fin R) (j : Fin B) :
    maximumf (addf (mulf (subf z (broadcastInDim _ ![0, 1] h2 (broadcastInDim (⟨2, ![1, B]⟩ : Shape) ![1] h1 mu)))
          (broadcastInDim _ ![0, 1] h2 (broadcastInDim (⟨2, ![1, B]⟩ : Shape) ![1] h1
            (mulf g (Host.rsqrt (addf var (broadcastInDim _ ![] he (constant (F := Ideal) ⟨0, ![]⟩ .f32 0x3727C5AC#32))))))))
        (broadcastInDim _ ![0, 1] h2 (broadcastInDim (⟨2, ![1, B]⟩ : Shape) ![1] h1 be)))
      (broadcastInDim _ ![] hz (constant (F := Ideal) ⟨0, ![]⟩ .f32 0x00000000#32)) (ix2 r j)
      = normAt (z (ix2 r j)) g be mu var j := by
  rw [maximumf_apply, addf_apply, mulf_apply, subf_apply, row_host_apply, row_host_apply, row_host_apply,
    RowOps.broadcastInDim_scalar_apply, mulf_apply]
  unfold Host.rsqrt
  rw [addf_apply, RowOps.broadcastInDim_scalar_apply]
  rfl

end Idealize.ShloMosaic.NodeLayer

end
-- ==== Proof.LibSageLayer.lean ====
/-
  One layer of a node-wise graph network with its weights stored input-major, entry by entry over the extended reals,
  and the two ways it is computed — for any extents.

  A layer takes the neighbourhood mean `agg` and the nodes' own features `x` (one row per node), two weight
  matrices stored input-major (`[A, B]`: one row per input feature) and a bias, and gives
  `agg · wl + x · wr + b`; the first layer clamps the result at zero.

  * `entry agg x wl wr bj r j` is row `r` of `agg` against column `j` of `wl`, plus row `r` of `x` against column
    `j` of `wr`, plus the bias entry `bj` of column `j`.
  * The kernel's body on a block of rows — two products into a zero accumulator, the operands narrowed on the way
    in (nothing, on extended reals), the bias held as one row and broadcast down the block — reads, at `(r, j)`, as
    `entry` with the bias row's entry `j`.
  * The host's operations on the whole arrays — two `dot_general`s, the bias broadcast in two steps — read, at
    `(r, j)`, as `entry` with the bias vector's entry `j`.

  The two agree term by term: no law of arithmetic is needed beyond reading both at an index.
-/
import proofs.«146645_j80874234183757_1_alg».proof.Proof.LibNodeLayer

noncomputable section

open scoped BigOperators

namespace Idealize.ShloMosaic.SageLayer

open Idealize.ShloMosaic Idealize.ShloMosaic.ValueIdx

/-- Entry `(r, j)` of `agg · wl + x · wr` plus the bias entry `bj`. -/
def entry {R A B : ℕ} (agg x : FVec Ideal (⟨2, ![R, A]⟩ : Shape) .f32) (wl wr : FVec Ideal (⟨2, ![A, B]⟩ : Shape) .f32)
    (bj : Ideal .f32) (r : Fin R) (j : Fin B) : Ideal .f32 :=
  (∑ k : Fin A, agg (ix2 r k) * wl (ix2 k j)) + (∑ k : Fin A, x (ix2 r k) * wr (ix2 k j)) + bj

/-- An entry reads one row of each activation array: it is the same for two pairs of arrays that agree on that row. -/
theorem entry_congr {R R' A B : ℕ} {agg x : FVec Ideal (⟨2, ![R, A]⟩ : Shape) .f32}
    {agg' x' : FVec Ideal (⟨2, ![R', A]⟩ : Shape) .f32} {wl wr wl' wr' : FVec Ideal (⟨2, ![A, B]⟩ : Shape) .f32}
    {bj bj' : Ideal .f32} {r : Fin R} {r' : Fin R'} (j : Fin B)
    (ha : ∀ k, agg (ix2 r k) = agg' (ix2 r' k)) (hx : ∀ k, x (ix2 r k) = x' (ix2 r' k))
    (hwl : wl = wl') (hwr : wr = wr') (hb : bj = bj') :
    entry agg x wl wr bj r j = entry agg' x' wl' wr' bj' r' j := by
  subst hwl hwr hb
  unfold entry
  simp only [ha, hx]

/-- The whole layer without the clamp, as one array over the bias vector. -/
def layer {R A B : ℕ} (agg x : FVec Ideal (⟨2, ![R, A]⟩ : Shape) .f32) (wl wr : FVec Ideal (⟨2, ![A, B]⟩ : Shape) .f32)
    (b : FVec Ideal (⟨1, ![B]⟩ : Shape) .f32) : FVec Ideal (⟨2, ![R, B]⟩ : Shape) .f32 :=
  fun i => entry agg x wl wr (b (ix1 (i 1))) (i 0) (i 1)

/-- The whole layer clamped at zero. -/
def reluLayer {R A B : ℕ} (agg x : FVec Ideal (⟨2, ![R, A]⟩ : Shape) .f32) (wl wr : FVec Ideal (⟨2, ![A, B]⟩ : Shape) .f32)
    (b : FVec Ideal (⟨1, ![B]⟩ : Shape) .f32) : FVec Ideal (⟨2, ![R, B]⟩ : Shape) .f32 :=
  fun i => max (entry agg x wl wr (b (ix1 (i 1))) (i 0) (i 1)) (Ideal.ofBits .f32 0x00000000#32)

/-! ## The kernel's body on a block of rows -/

/-- The linear part of the body, the bias held as a row `[1, B]`. -/
theorem body_apply {R A B : ℕ}
    (d : DotDims (⟨2, ![R, A]⟩ : Shape) ⟨2, ![A, B]⟩ ⟨2, ![R, B]⟩) (hd : ∃ wf, d = RowOps.plainDims wf)
    (agg x : FVec Ideal (⟨2, ![R, A]⟩ : Shape) .f32) (wl wr : FVec Ideal (⟨2, ![A, B]⟩ : Shape) .f32)
    (brow : FVec Ideal (⟨2, ![1, B]⟩ : Shape) .f32) (hb : (⟨2, ![1, B]⟩ : Shape).Broadcasts ⟨2, ![R, B]⟩)
    (hlt : FTy.bf16.bits < FTy.f32.bits) (r : Fin R) (j : Fin B) :
    addf (addf (matmul d none (truncf .bf16 agg hlt) (truncf .bf16 wl hlt) (constant _ .f32 0x00000000#32))
          (matmul d none (truncf .bf16 x hlt) (truncf .bf16 wr hlt) (constant _ .f32 0x00000000#32)))
        (broadcastTo _ brow hb) (ix2 r j)
      = entry agg x wl wr (brow (ix2 (0 : Fin 1) j)) r j := by
  rw [addf_apply, addf_apply, broadcastTo_1b_ab_apply]
  unfold matmul
  rw [RowOps.matmul_zero_plain_apply d hd, RowOps.matmul_zero_plain_apply d hd]
  rfl

/-- The body with the clamp at zero. -/
theorem body_relu_apply {R A B : ℕ}
    (d : DotDims (⟨2, ![R, A]⟩ : Shape) ⟨2, ![A, B]⟩ ⟨2, ![R, B]⟩) (hd : ∃ wf, d = RowOps.plainDims wf)
    (agg x : FVec Ideal (⟨2, ![R, A]⟩ : Shape) .f32) (wl wr : FVec Ideal (⟨2, ![A, B]⟩ : Shape) .f32)
    (brow : FVec Ideal (⟨2, ![1, B]⟩ : Shape) .f32) (hb : (⟨2, ![1, B]⟩ : Shape).Broadcasts ⟨2, ![R, B]⟩)
    (hlt : FTy.bf16.bits < FTy.f32.bits) (r : Fin R) (j : Fin B) :
    maximumf (addf (addf (matmul d none (truncf .bf16 agg hlt) (truncf .bf16 wl hlt) (constant _ .f32 0x00000000#32))
          (matmul d none (truncf .bf16 x hlt) (truncf .bf16 wr hlt) (constant _ .f32 0x00000000#32)))
        (broadcastTo _ brow hb)) (broadcast _ (Scalar.ofBits (F := Ideal) .f32 0x00000000#32)) (ix2 r j)
      = max (entry agg x wl wr (brow (ix2 (0 : Fin 1) j)) r j) (Ideal.ofBits .f32 0x00000000#32) := by
  rw [maximumf_apply, body_apply d hd agg x wl wr brow hb hlt r j]
  rfl

/-! ## The host's operations on the whole arrays -/

/-- The linear part the host's way: two `dot_general`s added, then the bias vector broadcast in two steps. -/
theorem host_apply {R A B : ℕ}
    (d : DotDims (⟨2, ![R, A]⟩ : Shape) ⟨2, ![A, B]⟩ ⟨2, ![R, B]⟩) (hd : ∃ wf, d = RowOps.plainDims wf)
    (agg x : FVec Ideal (⟨2, ![R, A]⟩ : Shape) .f32) (wl wr : FVec Ideal (⟨2, ![A, B]⟩ : Shape) .f32)
    (b : FVec Ideal (⟨1, ![B]⟩ : Shape) .f32)
    (h1 : (⟨1, ![B]⟩ : Shape).BroadcastsInDim ⟨2, ![1, B]⟩ ![1])
    (h2 : (⟨2, ![1, B]⟩ : Shape).BroadcastsInDim ⟨2, ![R, B]⟩ ![0, 1]) (r : Fin R) (j : Fin B) :
    addf (addf (Host.dotGeneral d none agg wl) (Host.dotGeneral d none x wr))
        (broadcastInDim _ ![0, 1] h2 (broadcastInDim (⟨2, ![1, B]⟩ : Shape) ![1] h1 b)) (ix2 r j)
      = entry agg x wl wr (b (ix1 j)) r j := by
  rw [addf_apply, addf_apply, NodeLayer.row_host_apply]
  unfold Host.dotGeneral
  rw [RowOps.dotGeneral_plain_apply d hd, RowOps.dotGeneral_plain_apply d hd]
  rfl

/-- The host's clamp at zero (the outlined `relu`: a maximum with a broadcast zero). -/
theorem host_relu_apply {R A B : ℕ}
    (d : DotDims (⟨2, ![R, A]⟩ : Shape) ⟨2, ![A, B]⟩ ⟨2, ![R, B]⟩) (hd : ∃ wf, d = RowOps.plainDims wf)
    (agg x : FVec Ideal (⟨2, ![R, A]⟩ : Shape) .f32) (wl wr : FVec Ideal (⟨2, ![A, B]⟩ : Shape) .f32)
    (b : FVec Ideal (⟨1, ![B]⟩ : Shape) .f32)
    (h1 : (⟨1, ![B]⟩ : Shape).BroadcastsInDim ⟨2, ![1, B]⟩ ![1])
    (h2 : (⟨2, ![1, B]⟩ : Shape).BroadcastsInDim ⟨2, ![R, B]⟩ ![0, 1])
    (hz : (⟨0, ![]⟩ : Shape).BroadcastsInDim ⟨2, ![R, B]⟩ ![]) (r : Fin R) (j : Fin B) :
    maximumf (addf (addf (Host.dotGeneral d none agg wl) (Host.dotGeneral d none x wr))
        (broadcastInDim _ ![0, 1] h2 (broadcastInDim (⟨2, ![1, B]⟩ : Shape) ![1] h1 b)))
      (broadcastInDim _ ![] hz (constant (F := Ideal) ⟨0, ![]⟩ .f32 0x00000000#32)) (ix2 r j)
      = max (entry agg x wl wr (b (ix1 j)) r j) (Ideal.ofBits .f32 0x00000000#32) := by
  rw [maximumf_apply, host_apply d hd agg x wl wr b h1 h2 r j, RowOps.broadcastInDim_scalar_apply]
  rfl

end Idealize.ShloMosaic.SageLayer

end
-- ==== Proof.KernelBlocks.lean ====
/-
  What each pallas_call leaves in its result array, as one function of the arrays it is entered with.

  Each call runs over twenty grid points; point `t` works on rows `5000 t … 5000 t + 4999` of the two activation
  arrays (the neighbourhood mean and the nodes' own features), on the whole of the two weight matrices and of the
  bias row, and writes rows `5000 t … 5000 t + 4999` of the result. A row of a layer's result depends on the same row
  of the activation arrays only, so what point `t` writes back is block `t` of the layer applied to the whole
  arrays; the twenty blocks tile the result array, which therefore ends holding the layer of the whole arrays.
-/
import proofs.«146645_j80874234183757_1_alg».proof.Proof.Gen.KernelIdeal.Frame
import proofs.«146645_j80874234183757_1_alg».proof.Proof.LibSageLayer
import Idealize.ShloMosaic.Lib.Pipeline.Value
import Idealize.ShloMosaic.Lib.ValueLayout

set_option maxRecDepth 16384

noncomputable section

open scoped BigOperators

namespace Cert.KernelIdeal.Blocks

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The first layer -/

/-- The first layer on whole arrays, the bias held as a row: entry `(r, j)` clamped at zero. -/
def G0 (a0 a1 : FVec Ideal S100000x128 .f32) (a2 a3 : FVec Ideal S128x64 .f32) (a4 : FVec Ideal S1x64 .f32) :
    FVec Ideal S100000x64 .f32 :=
  fun i => max (SageLayer.entry (R := 100000) (A := 128) (B := 64) a0 a1 a2 a3 (a4 (ix2 (0 : Fin 1) (i 1))) (i 0) (i 1))
    (Ideal.ofBits .f32 0x00000000#32)

/-- The body's stored value at `(p, q)` of a block. -/
theorem pay0_apply (x0 x1 : FVec Ideal S5000x128 .f32) (x2 x3 : FVec Ideal S128x64 .f32) (x4 : FVec Ideal S1x64 .f32)
    (p : Fin 5000) (q : Fin 64) :
    k0_pay1 x0 x1 x2 x3 x4 (ix2 p q)
      = max (SageLayer.entry (R := 5000) (A := 128) (B := 64) x0 x1 x2 x3 (x4 (ix2 (0 : Fin 1) q)) p q)
          (Ideal.ofBits .f32 0x00000000#32) := by
  unfold k0_pay1
  simp only [shapeCast_self]
  exact SageLayer.body_relu_apply (R := 5000) (A := 128) (B := 64) dot_S5000x128_S128x64_S5000x64_1_0_0_1_n_n ⟨_, rfl⟩
    x0 x1 x2 x3 x4 broadcasts_S1x64_S5000x64 bitsLt_bf16_f32 p q

/-- A point's stored block against the layer of the whole arrays: when the block's activation rows are the rows
    `5000 n + ·` of the arrays and its weights and bias row are the arrays', the value stored at `y` is the layer's at
    the array index `i` that `y` sits at. -/
theorem point0_eq (x0 x1 : FVec Ideal S5000x128 .f32) (x2 x3 : FVec Ideal S128x64 .f32) (x4 : FVec Ideal S1x64 .f32)
    (a0 a1 : FVec Ideal S100000x128 .f32) (a2 a3 : FVec Ideal S128x64 .f32) (a4 : FVec Ideal S1x64 .f32)
    (n : ℕ) (y : S5000x64.Idx) (i : S100000x64.Idx)
    (hi0 : (i 0).val = n * 5000 + (y 0).val) (hi1 : (i 1).val = (y 1).val)
    (h0 : ∀ (u : S5000x128.Idx) (v : S100000x128.Idx), (v 0).val = n * 5000 + (u 0).val → (v 1).val = (u 1).val → x0 u = a0 v)
    (h1 : ∀ (u : S5000x128.Idx) (v : S100000x128.Idx), (v 0).val = n * 5000 + (u 0).val → (v 1).val = (u 1).val → x1 u = a1 v)
    (h2 : x2 = a2) (h3 : x3 = a3) (h4 : x4 = a4) :
    k0_pay1 x0 x1 x2 x3 x4 y = G0 a0 a1 a2 a3 a4 i := by
  obtain ⟨p, q, rfl⟩ : ∃ (p : Fin 5000) (q : Fin 64), y = ix2 p q := ⟨y 0, y 1, eq_ix2 y⟩
  obtain ⟨r, s, rfl⟩ : ∃ (r : Fin 100000) (s : Fin 64), i = ix2 r s := ⟨i 0, i 1, eq_ix2 i⟩
  have hs : s = q := Fin.ext hi1
  subst hs
  rw [pay0_apply]
  unfold G0
  refine congrArg (max · _) (SageLayer.entry_congr s (fun k => h0 _ _ hi0 rfl) (fun k => h1 _ _ hi0 rfl) h2 h3 (by rw [h4]))

/-- The printed index maps over the grid: the row-blocked windows (the mean, the features, the result) sit at block
    `t` of the rows and block 0 of the columns; the weights and the bias row at block `(0, 0)` of their whole arrays. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The mean's block at point `t` is rows `5000 t + ·` of the mean array. -/
theorem iblk0_0_apply (c : Dev nD) (t : Fin cfg0.N) (u : S5000x128.Idx) (v : S100000x128.Idx)
    (hv0 : (v 0).val = t.val * 5000 + (u 0).val) (hv1 : (v 1).val = (u 1).val) :
    (iblk0 V c 0 t : FVec Ideal S5000x128 .f32) u = (V c main_v21 : FVec Ideal S100000x128 .f32) v := by
  obtain ⟨e0, e1, -⟩ := idx0 t
  unfold iblk0
  rw [View.read_apply]
  show V c main_v21 _ = V c main_v21 _
  congr 1
  funext a
  apply Fin.ext
  match a with
  | ⟨0, _⟩ => show win0_0.index t 0 * 5000 + 1 * (u 0).val = (v 0).val; rw [e0, hv0]; omega
  | ⟨1, _⟩ => show win0_0.index t 1 * 128 + 1 * (u 1).val = (v 1).val; rw [e1, hv1]; omega

/-- The features' block at point `t` is rows `5000 t + ·` of the feature array. -/
theorem iblk0_1_apply (c : Dev nD) (t : Fin cfg0.N) (u : S5000x128.Idx) (v : S100000x128.Idx)
    (hv0 : (v 0).val = t.val * 5000 + (u 0).val) (hv1 : (v 1).val = (u 1).val) :
    (iblk0 V c 1 t : FVec Ideal S5000x128 .f32) u = (V c main_arg0 : FVec Ideal S100000x128 .f32) v := by
  obtain ⟨-, -, e0, e1, -⟩ := idx0 t
  unfold iblk0
  rw [View.read_apply]
  show V c main_arg0 _ = V c main_arg0 _
  congr 1
  funext a
  apply Fin.ext
  match a with
  | ⟨0, _⟩ => show win0_1.index t 0 * 5000 + 1 * (u 0).val = (v 0).val; rw [e0, hv0]; omega
  | ⟨1, _⟩ => show win0_1.index t 1 * 128 + 1 * (u 1).val = (v 1).val; rw [e1, hv1]; omega

/-- Each weight matrix's block is the whole matrix, at every point. -/
theorem iblk0_2_eq (c : Dev nD) (t : Fin cfg0.N) :
    (iblk0 V c 2 t : FVec Ideal S128x64 .f32) = (V c main_arg2 : FVec Ideal S128x64 .f32) := by
  obtain ⟨-, -, -, -, e0, e1, -⟩ := idx0 t
  funext u
  unfold iblk0
  rw [View.read_apply]
  show V c main_arg2 _ = V c main_arg2 u
  congr 1
  funext a
  apply Fin.ext
  match a with
  | ⟨0, _⟩ => show win0_2.index t 0 * 128 + 1 * (u 0).val = (u 0).val; rw [e0]; omega
  | ⟨1, _⟩ => show win0_2.index t 1 * 64 + 1 * (u 1).val = (u 1).val; rw [e1]; omega

theorem iblk0_3_eq (c : Dev nD) (t : Fin cfg0.N) :
    (iblk0 V c 3 t : FVec Ideal S128x64 .f32) = (V c main_arg3 : FVec Ideal S128x64 .f32) := by
  obtain ⟨-, -, -, -, -, -, e0, e1, -⟩ := idx0 t
  funext u
  unfold iblk0
  rw [View.read_apply]
  show V c main_arg3 _ = V c main_arg3 u
  congr 1
  funext a
  apply Fin.ext
  match a with
  | ⟨0, _⟩ => show win0_3.index t 0 * 128 + 1 * (u 0).val = (u 0).val; rw [e0]; omega
  | ⟨1, _⟩ => show win0_3.index t 1 * 64 + 1 * (u 1).val = (u 1).val; rw [e1]; omega

/-- The bias row's block is the whole row, at every point. -/
theorem iblk0_4_eq (c : Dev nD) (t : Fin cfg0.N) :
    (iblk0 V c 4 t : FVec Ideal S1x64 .f32) = (V c main_v22 : FVec Ideal S1x64 .f32) := by
  obtain ⟨-, -, -, -, -, -, -, -, e0, e1, -⟩ := idx0 t
  funext u
  unfold iblk0
  rw [View.read_apply]
  show V c main_v22 _ = V c main_v22 u
  congr 1
  funext a
  apply Fin.ext
  match a with
  | ⟨0, _⟩ => show win0_4.index t 0 * 1 + 1 * (u 0).val = (u 0).val; rw [e0]; omega
  | ⟨1, _⟩ => show win0_4.index t 1 * 64 + 1 * (u 1).val = (u 1).val; rw [e1]; omega

/-- What point `t` writes back is block `t` of the first layer of the arrays the call is entered with. -/
theorem flushed0 (c : Dev nD) (t : Fin cfg0.N) :
    (dat0 V c).flushed 5 t = ((cfg0.win 5).blk t).view.read (Elt Ideal)
      (G0 (V c main_v21) (V c main_arg0) (V c main_arg2) (V c main_arg3) (V c main_v22)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x64) hz, View.ld_unit_zero (S := S1x64) hz]
  obtain ⟨-, -, -, -, -, -, -, -, -, -, e0, e1⟩ := idx0 t
  funext y
  refine point0_eq (iblk0 V c 0 t) (iblk0 V c 1 t) (iblk0 V c 2 t) (iblk0 V c 3 t) (iblk0 V c 4 t)
    (V c main_v21) (V c main_arg0) (V c main_arg2) (V c main_arg3) (V c main_v22) t.val y
    (((cfg0.win 5).blk t).view.emb y) ?_ ?_
    (fun u v h0 h1 => iblk0_0_apply V c t u v h0 h1) (fun u v h0 h1 => iblk0_1_apply V c t u v h0 h1)
    (iblk0_2_eq V c t) (iblk0_3_eq V c t) (iblk0_4_eq V c t)
  · show win0_5.index t 0 * 5000 + 1 * (y 0).val = t.val * 5000 + (y 0).val
    rw [e0]; omega
  · show win0_5.index t 1 * 64 + 1 * (y 1).val = (y 1).val
    rw [e1]; omega

/-- An index of the result array is in point `t`'s block iff each coordinate is in the block's range on its axis. -/
theorem mem_blk0 (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v23).slice (win0_5.rect t)).set ↔ _
  rw [View.set_slice_whole, Rect.mem_set_unit]
  exact Iff.rfl

/-- The twenty blocks tile the result array: row `r` is in the block of point `r / 5000`. -/
theorem cover0 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := N_0
  have ht : (i 0).val / 5000 < cfg0.N := by rw [hN]; omega
  obtain ⟨-, -, -, -, -, -, -, -, -, -, e0, e1⟩ := idx0 ⟨(i 0).val / 5000, ht⟩
  refine ⟨⟨(i 0).val / 5000, ht⟩, flush0_5 _, ?_⟩
  rw [mem_blk0]
  intro a
  match a with
  | ⟨0, _⟩ =>
    show win0_5.index ⟨(i 0).val / 5000, ht⟩ 0 * 5000 ≤ (i 0).val ∧ (i 0).val < win0_5.index ⟨(i 0).val / 5000, ht⟩ 0 * 5000 + 5000
    rw [e0]
    show (i 0).val / 5000 * 5000 ≤ (i 0).val ∧ (i 0).val < (i 0).val / 5000 * 5000 + 5000
    omega
  | ⟨1, _⟩ =>
    show win0_5.index ⟨(i 0).val / 5000, ht⟩ 1 * 64 ≤ (i 1).val ∧ (i 1).val < win0_5.index ⟨(i 0).val / 5000, ht⟩ 1 * 64 + 64
    rw [e1]
    omega

/-- The first call's result array ends holding the first layer of the arrays the call is entered with. -/
theorem final0 (c : Dev nD) :
    (dat0 V c).arrAt 5 cfg0.N = G0 (V c main_v21) (V c main_arg0) (V c main_arg2) (V c main_arg3) (V c main_v22) :=
  (dat0 V c).arrAt_eq_of_cover 5 (G0 (V c main_v21) (V c main_arg0) (V c main_arg2) (V c main_arg3) (V c main_v22))
    (fun t _ => flushed0 V c t) cover0

/-! ## The second layer -/

/-- The second layer on whole arrays, the bias held as a row: entry `(r, j)`, no clamp. -/
def G1 (a0 a1 : FVec Ideal S100000x64 .f32) (a2 a3 : FVec Ideal S64x64 .f32) (a4 : FVec Ideal S1x64 .f32) :
    FVec Ideal S100000x64 .f32 :=
  fun i => SageLayer.entry (R := 100000) (A := 64) (B := 64) a0 a1 a2 a3 (a4 (ix2 (0 : Fin 1) (i 1))) (i 0) (i 1)

/-- The body's stored value at `(p, q)` of a block. -/
theorem pay1_apply (x0 x1 : FVec Ideal S5000x64 .f32) (x2 x3 : FVec Ideal S64x64 .f32) (x4 : FVec Ideal S1x64 .f32)
    (p : Fin 5000) (q : Fin 64) :
    k1_pay1 x0 x1 x2 x3 x4 (ix2 p q)
      = SageLayer.entry (R := 5000) (A := 64) (B := 64) x0 x1 x2 x3 (x4 (ix2 (0 : Fin 1) q)) p q := by
  unfold k1_pay1
  simp only [shapeCast_self]
  exact SageLayer.body_apply (R := 5000) (A := 64) (B := 64) dot_S5000x64_S64x64_S5000x64_1_0_0_1_n_n ⟨_, rfl⟩
    x0 x1 x2 x3 x4 broadcasts_S1x64_S5000x64 bitsLt_bf16_f32 p q

/-- A point's stored block against the layer of the whole arrays, as for the first layer. -/
theorem point1_eq (x0 x1 : FVec Ideal S5000x64 .f32) (x2 x3 : FVec Ideal S64x64 .f32) (x4 : FVec Ideal S1x64 .f32)
    (a0 a1 : FVec Ideal S100000x64 .f32) (a2 a3 : FVec Ideal S64x64 .f32) (a4 : FVec Ideal S1x64 .f32)
    (n : ℕ) (y : S5000x64.Idx) (i : S100000x64.Idx)
    (hi0 : (i 0).val = n * 5000 + (y 0).val) (hi1 : (i 1).val = (y 1).val)
    (h0 : ∀ (u : S5000x64.Idx) (v : S100000x64.Idx), (v 0).val = n * 5000 + (u 0).val → (v 1).val = (u 1).val → x0 u = a0 v)
    (h1 : ∀ (u : S5000x64.Idx) (v : S100000x64.Idx), (v 0).val = n * 5000 + (u 0).val → (v 1).val = (u 1).val → x1 u = a1 v)
    (h2 : x2 = a2) (h3 : x3 = a3) (h4 : x4 = a4) :
    k1_pay1 x0 x1 x2 x3 x4 y = G1 a0 a1 a2 a3 a4 i := by
  obtain ⟨p, q, rfl⟩ : ∃ (p : Fin 5000) (q : Fin 64), y = ix2 p q := ⟨y 0, y 1, eq_ix2 y⟩
  obtain ⟨r, s, rfl⟩ : ∃ (r : Fin 100000) (s : Fin 64), i = ix2 r s := ⟨i 0, i 1, eq_ix2 i⟩
  have hs : s = q := Fin.ext hi1
  subst hs
  rw [pay1_apply]
  unfold G1
  exact SageLayer.entry_congr s (fun k => h0 _ _ hi0 rfl) (fun k => h1 _ _ hi0 rfl) h2 h3 (by rw [h4])

/-- The printed index maps over the second call's grid: as for the first call. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The mean's block at point `t` is rows `5000 t + ·` of the mean array. -/
theorem iblk1_0_apply (c : Dev nD) (t : Fin cfg1.N) (u : S5000x64.Idx) (v : S100000x64.Idx)
    (hv0 : (v 0).val = t.val * 5000 + (u 0).val) (hv1 : (v 1).val = (u 1).val) :
    (iblk1 V c 0 t : FVec Ideal S5000x64 .f32) u = (V c main_v41 : FVec Ideal S100000x64 .f32) v := by
  obtain ⟨e0, e1, -⟩ := idx1 t
  unfold iblk1
  rw [View.read_apply]
  show V c main_v41 _ = V c main_v41 _
  congr 1
  funext a
  apply Fin.ext
  match a with
  | ⟨0, _⟩ => show win1_0.index t 0 * 5000 + 1 * (u 0).val = (v 0).val; rw [e0, hv0]; omega
  | ⟨1, _⟩ => show win1_0.index t 1 * 64 + 1 * (u 1).val = (v 1).val; rw [e1, hv1]; omega

/-- The hidden features' block at point `t` is rows `5000 t + ·` of the first call's result array. -/
theorem iblk1_1_apply (c : Dev nD) (t : Fin cfg1.N) (u : S5000x64.Idx) (v : S100000x64.Idx)
    (hv0 : (v 0).val = t.val * 5000 + (u 0).val) (hv1 : (v 1).val = (u 1).val) :
    (iblk1 V c 1 t : FVec Ideal S5000x64 .f32) u = (V c main_v23 : FVec Ideal S100000x64 .f32) v := by
  obtain ⟨-, -, e0, e1, -⟩ := idx1 t
  unfold iblk1
  rw [View.read_apply]
  show V c main_v23 _ = V c main_v23 _
  congr 1
  funext a
  apply Fin.ext
  match a with
  | ⟨0, _⟩ => show win1_1.index t 0 * 5000 + 1 * (u 0).val = (v 0).val; rw [e0, hv0]; omega
  | ⟨1, _⟩ => show win1_1.index t 1 * 64 + 1 * (u 1).val = (v 1).val; rw [e1, hv1]; omega

/-- Each weight matrix's block is the whole matrix, at every point. -/
theorem iblk1_2_eq (c : Dev nD) (t : Fin cfg1.N) :
    (iblk1 V c 2 t : FVec Ideal S64x64 .f32) = (V c main_arg5 : FVec Ideal S64x64 .f32) := by
  obtain ⟨-, -, -, -, e0, e1, -⟩ := idx1 t
  funext u
  unfold iblk1
  rw [View.read_apply]
  show V c main_arg5 _ = V c main_arg5 u
  congr 1
  funext a
  apply Fin.ext
  match a with
  | ⟨0, _⟩ => show win1_2.index t 0 * 64 + 1 * (u 0).val = (u 0).val; rw [e0]; omega
  | ⟨1, _⟩ => show win1_2.index t 1 * 64 + 1 * (u 1).val = (u 1).val; rw [e1]; omega

theorem iblk1_3_eq (c : Dev nD) (t : Fin cfg1.N) :
    (iblk1 V c 3 t : FVec Ideal S64x64 .f32) = (V c main_arg6 : FVec Ideal S64x64 .f32) := by
  obtain ⟨-, -, -, -, -, -, e0, e1, -⟩ := idx1 t
  funext u
  unfold iblk1
  rw [View.read_apply]
  show V c main_arg6 _ = V c main_arg6 u
  congr 1
  funext a
  apply Fin.ext
  match a with
  | ⟨0, _⟩ => show win1_3.index t 0 * 64 + 1 * (u 0).val = (u 0).val; rw [e0]; omega
  | ⟨1, _⟩ => show win1_3.index t 1 * 64 + 1 * (u 1).val = (u 1).val; rw [e1]; omega

/-- The bias row's block is the whole row, at every point. -/
theorem iblk1_4_eq (c : Dev nD) (t : Fin cfg1.N) :
    (iblk1 V c 4 t : FVec Ideal S1x64 .f32) = (V c main_v42 : FVec Ideal S1x64 .f32) := by
  obtain ⟨-, -, -, -, -, -, -, -, e0, e1, -⟩ := idx1 t
  funext u
  unfold iblk1
  rw [View.read_apply]
  show V c main_v42 _ = V c main_v42 u
  congr 1
  funext a
  apply Fin.ext
  match a with
  | ⟨0, _⟩ => show win1_4.index t 0 * 1 + 1 * (u 0).val = (u 0).val; rw [e0]; omega
  | ⟨1, _⟩ => show win1_4.index t 1 * 64 + 1 * (u 1).val = (u 1).val; rw [e1]; omega

/-- What point `t` writes back is block `t` of the second layer of the arrays the call is entered with. -/
theorem flushed1 (c : Dev nD) (t : Fin cfg1.N) :
    (dat1 V c).flushed 5 t = ((cfg1.win 5).blk t).view.read (Elt Ideal)
      (G1 (V c main_v41) (V c main_v23) (V c main_arg5) (V c main_arg6) (V c main_v42)) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x64) hz, View.ld_unit_zero (S := S1x64) hz]
  obtain ⟨-, -, -, -, -, -, -, -, -, -, e0, e1⟩ := idx1 t
  funext y
  refine point1_eq (iblk1 V c 0 t) (iblk1 V c 1 t) (iblk1 V c 2 t) (iblk1 V c 3 t) (iblk1 V c 4 t)
    (V c main_v41) (V c main_v23) (V c main_arg5) (V c main_arg6) (V c main_v42) t.val y
    (((cfg1.win 5).blk t).view.emb y) ?_ ?_
    (fun u v h0 h1 => iblk1_0_apply V c t u v h0 h1) (fun u v h0 h1 => iblk1_1_apply V c t u v h0 h1)
    (iblk1_2_eq V c t) (iblk1_3_eq V c t) (iblk1_4_eq V c t)
  · show win1_5.index t 0 * 5000 + 1 * (y 0).val = t.val * 5000 + (y 0).val
    rw [e0]; omega
  · show win1_5.index t 1 * 64 + 1 * (y 1).val = (y 1).val
    rw [e1]; omega

/-- An index of the result array is in point `t`'s block iff each coordinate is in the block's range on its axis. -/
theorem mem_blk1 (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v43).slice (win1_5.rect t)).set ↔ _
  rw [View.set_slice_whole, Rect.mem_set_unit]
  exact Iff.rfl

/-- The twenty blocks tile the result array: row `r` is in the block of point `r / 5000`. -/
theorem cover1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  have ht : (i 0).val / 5000 < cfg1.N := by rw [hN]; omega
  obtain ⟨-, -, -, -, -, -, -, -, -, -, e0, e1⟩ := idx1 ⟨(i 0).val / 5000, ht⟩
  refine ⟨⟨(i 0).val / 5000, ht⟩, flush1_5 _, ?_⟩
  rw [mem_blk1]
  intro a
  match a with
  | ⟨0, _⟩ =>
    show win1_5.index ⟨(i 0).val / 5000, ht⟩ 0 * 5000 ≤ (i 0).val ∧ (i 0).val < win1_5.index ⟨(i 0).val / 5000, ht⟩ 0 * 5000 + 5000
    rw [e0]
    show (i 0).val / 5000 * 5000 ≤ (i 0).val ∧ (i 0).val < (i 0).val / 5000 * 5000 + 5000
    omega
  | ⟨1, _⟩ =>
    show win1_5.index ⟨(i 0).val / 5000, ht⟩ 1 * 64 ≤ (i 1).val ∧ (i 1).val < win1_5.index ⟨(i 0).val / 5000, ht⟩ 1 * 64 + 64
    rw [e1]
    omega

/-- The second call's result array ends holding the second layer of the arrays the call is entered with. -/
theorem final1 (c : Dev nD) :
    (dat1 V c).arrAt 5 cfg1.N = G1 (V c main_v41) (V c main_v23) (V c main_arg5) (V c main_arg6) (V c main_v42) :=
  (dat1 V c).arrAt_eq_of_cover 5 (G1 (V c main_v41) (V c main_v23) (V c main_arg5) (V c main_arg6) (V c main_v42))
    (fun t _ => flushed1 V c t) cover1

/-! ## The bias row is the bias vector -/

/-- The first layer over a bias row that is the bias vector reshaped is the clamped layer over the vector. -/
theorem G0_row (a0 a1 : FVec Ideal S100000x128 .f32) (a2 a3 : FVec Ideal S128x64 .f32) (b : FVec Ideal S64 .f32) :
    G0 a0 a1 a2 a3 (shapeCast S1x64 b shapeCasts_S64_S1x64) = SageLayer.reluLayer (R := 100000) (A := 128) (B := 64) a0 a1 a2 a3 b := by
  funext i
  obtain ⟨r, j, rfl⟩ : ∃ (r : Fin 100000) (j : Fin 64), i = ix2 r j := ⟨i 0, i 1, eq_ix2 i⟩
  unfold G0 SageLayer.reluLayer
  show max (SageLayer.entry a0 a1 a2 a3 (shapeCast S1x64 b shapeCasts_S64_S1x64 (ix2 (0 : Fin 1) j)) r j) _
    = max (SageLayer.entry a0 a1 a2 a3 (b (ix1 j)) r j) _
  rw [shapeCast_a_1a_apply]

/-- The second layer over a bias row that is the bias vector reshaped is the layer over the vector. -/
theorem G1_row (a0 a1 : FVec Ideal S100000x64 .f32) (a2 a3 : FVec Ideal S64x64 .f32) (b : FVec Ideal S64 .f32) :
    G1 a0 a1 a2 a3 (shapeCast S1x64 b shapeCasts_S64_S1x64) = SageLayer.layer (R := 100000) (A := 64) (B := 64) a0 a1 a2 a3 b := by
  funext i
  obtain ⟨r, j, rfl⟩ : ∃ (r : Fin 100000) (j : Fin 64), i = ix2 r j := ⟨i 0, i 1, eq_ix2 i⟩
  unfold G1 SageLayer.layer
  show SageLayer.entry a0 a1 a2 a3 (shapeCast S1x64 b shapeCasts_S64_S1x64 (ix2 (0 : Fin 1) j)) r j
    = SageLayer.entry a0 a1 a2 a3 (b (ix1 j)) r j
  rw [shapeCast_a_1a_apply]

end Cert.KernelIdeal.Blocks

end
-- ==== Proof.RefLayers.lean ====
/-
  The reference's two stages, each as one layer of the network.

  The reference computes, on whole arrays: the neighbourhood mean of the input features; the first layer of that mean
  and the features, clamped at zero — the hidden array —; the neighbourhood mean of the hidden array; the second layer
  of that mean and the hidden array. Its two dense stages are read here at an index as the layer's entry. The
  neighbourhood mean (a gather of source rows, a sum into destination rows, a division by the clamped in-degree) is
  never opened: the mean of the hidden array is kept as one function `mean2` of the hidden array and the edge list.
-/
import proofs.«146645_j80874234183757_1_alg».proof.Proof.Gen.ReferenceIdeal.Read
import proofs.«146645_j80874234183757_1_alg».proof.Proof.LibSageLayer

noncomputable section

namespace Cert.ReferenceIdeal.Layers

open Cert.ReferenceIdeal Cert.ReferenceIdeal.Gen Cert.ReferenceIdeal.Read
open Idealize.ShloMosaic Idealize.ShloMosaic.TcCoe Idealize.ShloMosaic.ValueIdx

/-- The neighbourhood mean of an array `h` of 64 features per node, over the edge list `e`: rows of `h` gathered at the
    edges' sources, summed into the edges' destinations, divided by the destinations' in-degree clamped below at one. -/
def mean2 (h : FVec Ideal S100000x64 .f32) (e : IVec S2x1600000 32) : FVec Ideal S100000x64 .f32 :=
  Host.divf (F := Ideal) (φ := .f32)
    (Host.scatterAdd (F := Ideal) (φ := .f32) scatter_S100000x64_S1600000x1_S1600000x64_1_0_0_1 (val_main_v36 (F := Ideal)) (val_main_v37 (F := Ideal) e)
      (Host.gather (α := Ideal .f32) gather_S100000x64_S1600000x1_S1600000x64_1_0_n_n_0_1_164 h (val_main_v34 (F := Ideal) e)))
    (val_main_v45 (F := Ideal) e)

variable (x0 : (⟨S100000x128, .f32⟩ : BufTy).Contents (Elt Ideal)) (x1 : (⟨S2x1600000, .i32⟩ : BufTy).Contents (Elt Ideal))
  (x2 x3 : (⟨S128x64, .f32⟩ : BufTy).Contents (Elt Ideal)) (x4 : (⟨S64, .f32⟩ : BufTy).Contents (Elt Ideal))
  (x5 x6 : (⟨S64x64, .f32⟩ : BufTy).Contents (Elt Ideal)) (x7 : (⟨S64, .f32⟩ : BufTy).Contents (Elt Ideal))

/-- The reference's second mean is `mean2` of its hidden array. -/
theorem mean2_eq : val_main_v46 (F := Ideal) x0 x1 x2 x3 x4 = mean2 (val_main_v28 (F := Ideal) x0 x1 x2 x3 x4) x1 := rfl

/-- The reference's hidden array is the first layer, clamped at zero, of the first mean and the input features. -/
theorem hidden_eq : val_main_v28 (F := Ideal) x0 x1 x2 x3 x4
    = SageLayer.reluLayer (R := 100000) (A := 128) (B := 64) (val_main_v21 (F := Ideal) x0 x1) x0 x2 x3 x4 := by
  funext i
  obtain ⟨r, j, rfl⟩ : ∃ (r : Fin 100000) (j : Fin 64), i = ix2 r j := ⟨i 0, i 1, eq_ix2 i⟩
  unfold val_main_v28 val_main_v27 val_main_v24 val_main_v22 val_main_v23 val_main_v26 val_main_v25 val_main_call0_v0 val_main_call0_cst
  exact SageLayer.host_relu_apply (R := 100000) (A := 128) (B := 64) dot_S100000x128_S128x64_S100000x64_1_0_0_1_n_n ⟨_, rfl⟩
    (val_main_v21 (F := Ideal) x0 x1) x0 x2 x3 x4 bcast_S64_S1x64_1 bcast_S1x64_S100000x64_0_1 bcast_S_S100000x64 r j

/-- The reference's result is the second layer of the second mean and the hidden array. -/
theorem out_eq : val_main_v52 (F := Ideal) x0 x1 x2 x3 x4 x5 x6 x7
    = SageLayer.layer (R := 100000) (A := 64) (B := 64) (val_main_v46 (F := Ideal) x0 x1 x2 x3 x4) (val_main_v28 (F := Ideal) x0 x1 x2 x3 x4) x5 x6 x7 := by
  funext i
  obtain ⟨r, j, rfl⟩ : ∃ (r : Fin 100000) (j : Fin 64), i = ix2 r j := ⟨i 0, i 1, eq_ix2 i⟩
  unfold val_main_v52 val_main_v49 val_main_v47 val_main_v48 val_main_v51 val_main_v50
  exact SageLayer.host_apply (R := 100000) (A := 64) (B := 64) dot_S100000x64_S64x64_S100000x64_1_0_0_1_n_n ⟨_, rfl⟩
    (val_main_v46 (F := Ideal) x0 x1 x2 x3 x4) (val_main_v28 (F := Ideal) x0 x1 x2 x3 x4) x5 x6 x7
    bcast_S64_S1x64_1 bcast_S1x64_S100000x64_0_1 r j

end Cert.ReferenceIdeal.Layers

end
-- ==== Proof.KernelStretch.lean ====
/-
  What the two stretches of host operations leave in the buffers each pallas_call is entered with.

  Before the first call the host computes the neighbourhood mean of the input features and reshapes the first bias
  vector to a row; between the calls it computes the neighbourhood mean of the hidden array the first call left and
  reshapes the second bias vector. Read back from the launch memory:

  * the first call is entered with the first mean — the very operations the reference applies, so the reference's own
    term for it —, the input features, the first layer's weights, and the first bias as a row;
  * the second call is entered with `mean2` of the hidden array and the edge list, the hidden array itself, the second
    layer's weights, and the second bias as a row.

  Neither mean is opened: the kernel's host operations and the reference's are the same operations on the same
  arrays, and each side's term is the other's.
-/
import proofs.«146645_j80874234183757_1_alg».proof.Proof.Gen.KernelIdeal.Frame
import proofs.«146645_j80874234183757_1_alg».proof.Proof.RefLayers
import Idealize.ShloMosaic.Lib.StableHlo.Run

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Entering the first call -/

set_option maxHeartbeats 4000000 in
/-- The mean window's array: the reference's term for the first neighbourhood mean, of the launch arguments. -/
theorem V1_mean (c : Dev nD) :
    V1 m ρ c main_v21 = Cert.ReferenceIdeal.Read.val_main_v21 (F := Ideal)
      (m ((c : Thread nD τ).loc main_arg0)) (m ((c : Thread nD τ).loc main_arg1)) := by
  show StableHlo.after hostOps0 (W0 m ρ c) (Proc.devRef .tc main_v21) = _
  dsimp only [hostOps0]
  after_results_simp
  all_goals rfl

/-- The feature window's array is the input features. -/
theorem V1_arg0 (c : Dev nD) : V1 m ρ c main_arg0 = m ((c : Thread nD τ).loc main_arg0) := by
  show StableHlo.after hostOps0 (W0 m ρ c) (Proc.devRef .tc main_arg0) = _
  dsimp only [hostOps0]
  after_results
  all_goals rfl

/-- The weight windows' arrays are the first layer's weights. -/
theorem V1_arg2 (c : Dev nD) : V1 m ρ c main_arg2 = m ((c : Thread nD τ).loc main_arg2) := by
  show StableHlo.after hostOps0 (W0 m ρ c) (Proc.devRef .tc main_arg2) = _
  dsimp only [hostOps0]
  after_results
  all_goals rfl

theorem V1_arg3 (c : Dev nD) : V1 m ρ c main_arg3 = m ((c : Thread nD τ).loc main_arg3) := by
  show StableHlo.after hostOps0 (W0 m ρ c) (Proc.devRef .tc main_arg3) = _
  dsimp only [hostOps0]
  after_results
  all_goals rfl

/-- The bias window's array is the first bias vector as a row. -/
theorem V1_bias (c : Dev nD) :
    V1 m ρ c main_v22 = shapeCast S1x64 (m ((c : Thread nD τ).loc main_arg4)) shapeCasts_S64_S1x64 := by
  show StableHlo.after hostOps0 (W0 m ρ c) (Proc.devRef .tc main_v22) = _
  dsimp only [hostOps0]
  after_results
  all_goals rfl

/-! ## Between the calls -/

/-- The edges' sources and destinations, computed before the first call, are still there after it. -/
theorem W2_src (c : Dev nD) :
    W2 m ρ c (Proc.devRef .tc main_v1) = Cert.ReferenceIdeal.Read.val_main_v1 (F := Ideal) (m ((c : Thread nD τ).loc main_arg1)) := by
  rw [W2_of_ne m ρ c main_v1 (by decide)]
  show StableHlo.after hostOps0 (W0 m ρ c) (Proc.devRef .tc main_v1) = _
  dsimp only [hostOps0]
  after_results
  all_goals rfl

theorem W2_dst (c : Dev nD) :
    W2 m ρ c (Proc.devRef .tc main_v3) = Cert.ReferenceIdeal.Read.val_main_v3 (F := Ideal) (m ((c : Thread nD τ).loc main_arg1)) := by
  rw [W2_of_ne m ρ c main_v3 (by decide)]
  show StableHlo.after hostOps0 (W0 m ρ c) (Proc.devRef .tc main_v3) = _
  dsimp only [hostOps0]
  after_results
  all_goals rfl

/-- An argument neither call writes and no host operation writes is, after the first call, as launched. -/
theorem W2_arg5 (c : Dev nD) : W2 m ρ c (Proc.devRef .tc main_arg5) = m ((c : Thread nD τ).loc main_arg5) := by
  rw [W2_of_ne m ρ c main_arg5 (by decide)]
  show StableHlo.after hostOps0 (W0 m ρ c) (Proc.devRef .tc main_arg5) = _
  dsimp only [hostOps0]
  after_results
  all_goals rfl

theorem W2_arg6 (c : Dev nD) : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  dsimp only [hostOps0]
  after_results
  all_goals rfl

theorem W2_arg7 (c : Dev nD) : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  dsimp only [hostOps0]
  after_results
  all_goals rfl

/-! ## Entering the second call -/

/-- The hidden window's array is what the first call left in its result array. -/
theorem V3_hidden (c : Dev nD) : V3 m ρ c main_v23 = W2 m ρ c (Proc.devRef .tc main_v23) := by
  show StableHlo.after hostOps1 (W2 m ρ c) (Proc.devRef .tc main_v23) = _
  dsimp only [hostOps1]
  after_results
  all_goals rfl

set_option maxHeartbeats 4000000 in
/-- The mean window's array is the neighbourhood mean of what the first call left, over the edge list. -/
theorem V3_mean (c : Dev nD) :
    V3 m ρ c main_v41 = Cert.ReferenceIdeal.Layers.mean2 (W2 m ρ c (Proc.devRef .tc main_v23))
      (m ((c : Thread nD τ).loc main_arg1)) := by
  show StableHlo.after hostOps1 (W2 m ρ c) (Proc.devRef .tc main_v41) = _
  dsimp only [hostOps1]
  after_results_simp
  rw [W2_src m ρ c, W2_dst m ρ c]
  rfl

/-- The weight windows' arrays are the second layer's weights. -/
theorem V3_arg5 (c : Dev nD) : V3 m ρ c main_arg5 = m ((c : Thread nD τ).loc main_arg5) := by
  show StableHlo.after hostOps1 (W2 m ρ c) (Proc.devRef .tc main_arg5) = _
  dsimp only [hostOps1]
  after_results
  exact W2_arg5 m ρ c

theorem V3_arg6 (c : Dev nD) : V3 m ρ c main_arg6 = m ((c : Thread nD τ).loc main_arg6) := by
  show StableHlo.after hostOps1 (W2 m ρ c) (Proc.devRef .tc main_arg6) = _
  dsimp only [hostOps1]
  after_results
  exact W2_arg6 m ρ c

/-- The bias window's array is the second bias vector as a row. -/
theorem V3_bias (c : Dev nD) :
    V3 m ρ c main_v42 = shapeCast S1x64 (m ((c : Thread nD τ).loc main_arg7)) shapeCasts_S64_S1x64 := by
  show StableHlo.after hostOps1 (W2 m ρ c) (Proc.devRef .tc main_v42) = _
  dsimp only [hostOps1]
  after_results
  rw [W2_arg7 m ρ c]
  rfl

end Cert.KernelIdeal.Stretch

end
-- ==== Proof.KernelValue.lean ====
/-
  The idealized kernel's result: the reference's own term of the launch arguments.

  Opened one boundary at a time, the contents of the result array when @main returns are: what the second
  pallas_call's write-backs leave — the second layer of the arrays that call is entered with —, those being the mean
  of the hidden array, the hidden array, the second weights and the second bias; the hidden array is what the first
  call's write-backs leave — the first layer, clamped at zero, of the first mean, the input features, the first
  weights and the first bias. The reference's hidden array and result read as the same two layers of the same
  arrays, so the kernel's result is the reference's stage for its result, applied to the kernel's own arguments.
-/
import proofs.«146645_j80874234183757_1_alg».proof.Proof.KernelRun
import proofs.«146645_j80874234183757_1_alg».proof.Proof.KernelBlocks
import proofs.«146645_j80874234183757_1_alg».proof.Proof.KernelStretch

set_option maxRecDepth 16384

noncomputable section

namespace Cert.KernelIdeal.Result

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- What the first call leaves in its result array is the reference's hidden array of the launch arguments. -/
theorem hidden (c : Dev nD) :
    W2 m ρ c (Proc.devRef .tc main_v23) = Cert.ReferenceIdeal.Read.val_main_v28 (F := Ideal)
      (m ((c : Thread nD τ).loc main_arg0)) (m ((c : Thread nD τ).loc main_arg1)) (m ((c : Thread nD τ).loc main_arg2))
      (m ((c : Thread nD τ).loc main_arg3)) (m ((c : Thread nD τ).loc main_arg4)) := by
  rw [show W2 m ρ c (Proc.devRef .tc main_v23) = (dat0 (V1 m ρ) c).arrAt 5 cfg0.N from W2_arr m ρ c 5,
    Blocks.final0 (V1 m ρ) c, Stretch.V1_mean m ρ c, Stretch.V1_arg0 m ρ c, Stretch.V1_arg2 m ρ c, Stretch.V1_arg3 m ρ c,
    Stretch.V1_bias m ρ c, Blocks.G0_row, Cert.ReferenceIdeal.Layers.hidden_eq]

/-- What the second call leaves in the result array is the reference's result of the launch arguments. -/
theorem result (c : Dev nD) :
    W4 m ρ c (Proc.devRef .tc main_v43) = Cert.ReferenceIdeal.Read.val_main_v52 (F := Ideal)
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) := by
  rw [show W4 m ρ c (Proc.devRef .tc main_v43) = (dat1 (V3 m ρ) c).arrAt 5 cfg1.N from W4_arr m ρ c 5,
    Blocks.final1 (V3 m ρ) c, Stretch.V3_mean m ρ c, Stretch.V3_hidden m ρ c, Stretch.V3_arg5 m ρ c, Stretch.V3_arg6 m ρ c,
    Stretch.V3_bias m ρ c, Blocks.G1_row, hidden m ρ c, ← Cert.ReferenceIdeal.Layers.mean2_eq,
    Cert.ReferenceIdeal.Layers.out_eq]

/-- The run, read: every weakly fair execution ends with the result array at the reference's term of the launch
    arguments and the arguments as launched. -/
theorem run : θ_run defs (onTc (τ := τ) (main (F := Ideal))) ⟨m, fun _ => 0, ρ⟩ (fun r => ∀ c : Dev nD,
      r.2.mem ((c.tc : Thread nD τ).loc main_v43) = Cert.ReferenceIdeal.Read.val_main_v52 (F := Ideal)
        (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result m ρ c), (h c).2⟩) (Named.run (F := Ideal) m ρ)

end Cert.KernelIdeal.Result

end
-- ==== Proof.lean ====
/-
  The certificate of a two-layer graph network: a tiled Pallas kernel per layer against plain jnp.

  Each layer is `mean · W_l + h · W_r + b`, where `mean` is the neighbourhood mean of the node features `h` over the
  edge list (rows gathered at the edges' sources, summed into their destinations, divided by the in-degree clamped
  below at one); the first layer is clamped at zero. The kernel leaves the neighbourhood mean to the host and
  computes each layer's dense part in a pallas_call over blocks of 5000 nodes, narrowing the operands of its two
  products to bf16; the reference computes the same mean with the same host operations and the dense part by two
  `dot_general`s on the whole arrays.

  Over the extended reals narrowing is the identity and a product into a zero accumulator is the plain sum, so a
  block's stored value at a row is the layer's entry at that row of the whole arrays; the blocks tile the result
  array (Proof/KernelBlocks.lean). The host's stretches are read back from the launch memory, the two means left
  unopened as the terms the reference has for them (Proof/KernelStretch.lean), and the reference's two dense stages
  read at an index as the same entries (Proof/RefLayers.lean, over Proof/LibSageLayer.lean). Hence both programs end with
  the one function of their arguments (Proof/KernelValue.lean), and arguments that agree give equal results. No law
  of arithmetic beyond reading both sides at an index is used, and the precondition is not needed.

  The three frames are the generated ones (the reference's is its generated run with the result dropped), and the
  idealization rewrote no operation, so nothing is owed for it.
-/
import proofs.«146645_j80874234183757_1_alg».proof.Defs
import proofs.«146645_j80874234183757_1_alg».proof.Proof.Gen.Kernel
import proofs.«146645_j80874234183757_1_alg».proof.Proof.Gen.Kernel.Skeleton
import proofs.«146645_j80874234183757_1_alg».proof.Proof.Gen.Kernel.Launch
import proofs.«146645_j80874234183757_1_alg».proof.Proof.Gen.Kernel.Points
import proofs.«146645_j80874234183757_1_alg».proof.Proof.Gen.Kernel.Frame
import proofs.«146645_j80874234183757_1_alg».proof.Proof.Gen.KernelIdeal
import proofs.«146645_j80874234183757_1_alg».proof.Proof.Gen.KernelIdeal.Skeleton
import proofs.«146645_j80874234183757_1_alg».proof.Proof.Gen.KernelIdeal.Launch
import proofs.«146645_j80874234183757_1_alg».proof.Proof.Gen.KernelIdeal.Points
import proofs.«146645_j80874234183757_1_alg».proof.Proof.Gen.KernelIdeal.Frame
import proofs.«146645_j80874234183757_1_alg».proof.Proof.Gen.ReferenceIdeal
import proofs.«146645_j80874234183757_1_alg».proof.Proof.Gen.Pre_finite_inputs
import proofs.«146645_j80874234183757_1_alg».proof.Proof.Gen.ReferenceIdeal.Run
import proofs.«146645_j80874234183757_1_alg».proof.Proof.Gen.ReferenceIdeal.Read
import proofs.«146645_j80874234183757_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the reference's term of their arguments; the arguments agree. -/
theorem algebraic : Cert.algebraic_KernelIdeal_ReferenceIdeal := by
  intro m ρ m' ρ' _ hagree
  refine ⟨fun c => Cert.ReferenceIdeal.Read.val_main_v52 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.ReferenceIdeal.Read.val_main_v52_eq, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
